-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S128x64 .f32) (main_arg8 : FVec F S128x64 .f32) (main_arg9 : FVec F S64 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S128x128 .f32) (main_arg5 : FVec F S128x128 .f32) (main_arg6 : FVec F S128 .f32) (main_arg7 : FVec F S128x64 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S128x128 .f32) (main_arg2 : FVec F S128x128 .f32) (main_arg3 : FVec F S128 .f32) (main_arg4 : FVec F S128x128 .f32) (main_arg5 : FVec F S128x128 .f32) (main_arg6 : FVec F S128 .f32) (main_arg7 : FVec F S128x64 .f32) (main_arg8 : FVec F S128x64 .f32) (main_arg9 : FVec F S64 .f32) (main_arg10 : IVec S1600000 32) (main_arg11 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 72
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S1x128, .f32⟩
  | .hbm, ⟨39, _⟩ => ⟨S100000x128, .bf16⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .bf16⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S1x128, .f32⟩
  | .hbm, ⟨55, _⟩ => ⟨S100000x128, .bf16⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .bf16⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S1x64, .f32⟩
  | .hbm, ⟨71, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .bf16⟩
  | .local _ .vmem, ⟨12, _⟩ => ⟨S5000x128, .bf16⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .bf16⟩
  | .local _ .vmem, ⟨21, _⟩ => ⟨S5000x128, .bf16⟩
  | .local _ .vmem, ⟨22, _⟩ => ⟨S5000x128, .bf16⟩
  | .local _ .vmem, ⟨23, _⟩ => ⟨S5000x128, .bf16⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x64, .f32⟩
  | .local _ .vmem, ⟨29, _⟩ => ⟨S128x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  shapeCasts_S64_S1x64 : S64.ShapeCasts S1x64
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .bf16 = 32 ∨ (Rect.block (s := S100000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .bf16 = 32 ∨ (Rect.block (s := S100000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .bf16 = 32 ∨ (Rect.block (s := S100000x128) S5000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .bf16 = 32 ∨ (Rect.block (s := S100000x128) S5000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v33) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S100000x1, .f32⟩
  | .hbm, ⟨88, _⟩ => ⟨S100000x128, .f32⟩
  | .hbm, ⟨89, _⟩ => ⟨S100000x128, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel's run with its result array NAMED.

  @main is three dense-kernel regions among stretches of host operations. The buffer contents at each boundary are a
  fold from the launch memory: a host stretch applies its operations in order; a region leaves each of its arrays at
  what its write-backs fold to and every other buffer as it was. Every weakly fair execution terminates without a
  fault in a state where each unscoped buffer holds the last boundary's contents — in particular the result array
  holds the last boundary's contents at its reference, and the argument arrays are as launched.
-/
import proofs.«142328_j7146825581283_2_alg».proof.Proof.GenPFrameKI

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run_named : θ_run defs (onTc (τ := τ) (main (F := F))) ⟨m, fun _ => 0, ρ⟩ (fun r => ∀ c : Dev nD,
      r.2.mem ((c.tc : Thread nD τ).loc main_v46) = W6 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v46 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.ValueRun

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.LibColBroadcast.lean ====
/-
  A column `[a, 1]` broadcast along the rows of `[a, b]`, read at an index written by coordinates: entry (i, j) of the
  result is the column's entry i.  General lemma: any element type, any extents.
-/
import Idealize.ShloMosaic.Lib.Pipeline.Value
import Idealize.ShloMosaic.Lib.ValueIdx

namespace Cert.LibColBroadcast

open Idealize.ShloMosaic Idealize.ShloMosaic.ValueIdx

/-- A column `[a, 1]` broadcast along the rows of `[a, b]` reads, at `(i, j)`, the column's entry `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColBroadcast
-- ==== Proof.KPay.lean ====
/-
  What one grid point of each of the three dense kernels stores, entry by entry, at the ideal instance.

  The body loads a block `x0` of the node matrix (5000 rows), the matching block `x1` of the neighbour aggregate, the
  matching column block `x2` of per-node scales, the two whole weight matrices `x3`, `x4` and the bias row `x5`, and stores
      Σ_q x0(p,q)·x3(q,j) + x2(p,0) · Σ_q x1(p,q)·x4(q,j) + x5(0,j)
  at entry (p, j) — followed by max(·, 0) in the first two kernels.  The changes of float format are identities on the
  extended reals, both matrix products start from the zero accumulator, the column of scales is broadcast along the
  rows and the bias row down the columns.
-/
import proofs.«142328_j7146825581283_2_alg».proof.Proof.Gen.KernelIdeal.Skeleton
import proofs.«142328_j7146825581283_2_alg».proof.Proof.LibPlainDot
import proofs.«142328_j7146825581283_2_alg».proof.Proof.LibRowBroadcast
import proofs.«142328_j7146825581283_2_alg».proof.Proof.LibColBroadcast
import Idealize.ShloMosaic.Lib.Pipeline.Value
import Idealize.ShloMosaic.Lib.ValueIdx
import Idealize.ShloMosaic.PureOps.Ideal.Laws

noncomputable section

namespace Cert.KernelIdeal.Pay

open Idealize.ShloMosaic Idealize.ShloMosaic.ValueIdx Cert.KernelIdeal Cert.KernelIdeal.Gen

/-- The first kernel's stored block at entry (p, j). -/
theorem pay0_apply (x0 x1 : Vec Ideal S5000x128 .f32) (x3 x4 : Vec Ideal S128x128 .f32) (x2 : Vec Ideal S5000x1 .f32)
    (x5 : Vec Ideal S1x128 .f32) (p : Fin 5000) (j : Fin 128) :
    k0_pay1 (F := Ideal) x0 x1 x3 x4 x2 x5 (ix2 p j)
      = max ((∑ q : Fin 128, x0 (ix2 p q) * x3 (ix2 q j) + x2 (ix2 p (0 : Fin 1)) * ∑ q : Fin 128, x1 (ix2 p q) * x4 (ix2 q j))
          + x5 (ix2 (0 : Fin 1) j)) 0 := by
  unfold k0_pay1
  simp only [truncf_apply, maximumf_apply, addf_apply, mulf_apply, broadcast_apply, shapeCast_self]
  rw [Cert.PlainDot.matmul_zero_ix2 dot_S5000x128_S128x128_S5000x128_1_0_0_1_n_n rfl, Cert.PlainDot.matmul_zero_ix2 dot_S5000x128_S128x128_S5000x128_1_0_0_1_n_n rfl,
    Cert.LibColBroadcast.broadcastTo_a1_ab_apply, Cert.LibRowBroadcast.broadcastTo_1b_ab_apply]
  simp only [truncf_apply, Scalar.ofBits, Ideal.ofBits_def, Ideal.ofBits_zero_f32]

/-- The second kernel's stored block at entry (p, j). -/
theorem pay1_apply (x0 : Vec Ideal S5000x128 .bf16) (x1 : Vec Ideal S5000x128 .f32) (x3 x4 : Vec Ideal S128x128 .f32)
    (x2 : Vec Ideal S5000x1 .f32) (x5 : Vec Ideal S1x128 .f32) (p : Fin 5000) (j : Fin 128) :
    k1_pay1 (F := Ideal) x0 x1 x3 x4 x2 x5 (ix2 p j)
      = max ((∑ q : Fin 128, x0 (ix2 p q) * x3 (ix2 q j) + x2 (ix2 p (0 : Fin 1)) * ∑ q : Fin 128, x1 (ix2 p q) * x4 (ix2 q j))
          + x5 (ix2 (0 : Fin 1) j)) 0 := by
  unfold k1_pay1
  simp only [truncf_apply, maximumf_apply, addf_apply, mulf_apply, broadcast_apply, shapeCast_self]
  rw [Cert.PlainDot.matmul_zero_ix2 dot_S5000x128_S128x128_S5000x128_1_0_0_1_n_n rfl, Cert.PlainDot.matmul_zero_ix2 dot_S5000x128_S128x128_S5000x128_1_0_0_1_n_n rfl,
    Cert.LibColBroadcast.broadcastTo_a1_ab_apply, Cert.LibRowBroadcast.broadcastTo_1b_ab_apply]
  simp only [truncf_apply, Scalar.ofBits, Ideal.ofBits_def, Ideal.ofBits_zero_f32]

/-- The third kernel's stored block at entry (p, j): no max(·, 0), and 64 columns. -/
theorem pay2_apply (x0 : Vec Ideal S5000x128 .bf16) (x1 : Vec Ideal S5000x128 .f32) (x3 x4 : Vec Ideal S128x64 .f32)
    (x2 : Vec Ideal S5000x1 .f32) (x5 : Vec Ideal S1x64 .f32) (p : Fin 5000) (j : Fin 64) :
    k2_pay1 (F := Ideal) x0 x1 x3 x4 x2 x5 (ix2 p j)
      = (∑ q : Fin 128, x0 (ix2 p q) * x3 (ix2 q j) + x2 (ix2 p (0 : Fin 1)) * ∑ q : Fin 128, x1 (ix2 p q) * x4 (ix2 q j))
          + x5 (ix2 (0 : Fin 1) j) := by
  unfold k2_pay1
  simp only [truncf_apply, addf_apply, mulf_apply, shapeCast_self]
  rw [Cert.PlainDot.matmul_zero_ix2 dot_S5000x128_S128x64_S5000x64_1_0_0_1_n_n rfl, Cert.PlainDot.matmul_zero_ix2 dot_S5000x128_S128x64_S5000x64_1_0_0_1_n_n rfl,
    Cert.LibColBroadcast.broadcastTo_a1_ab_apply, Cert.LibRowBroadcast.broadcastTo_1b_ab_apply]
  simp only [truncf_apply]

end Cert.KernelIdeal.Pay

end
-- ==== Proof.Spec.lean ====
/-
  The mathematics of the three-layer mean-aggregation network, on the extended reals.

  One layer maps a node matrix `h` (n rows, k columns), its neighbour aggregate `a` (same shape), a per-node scale
  `c` (n entries), two weight matrices and a bias row to the matrix whose entry (r, j) is
      Σ_q h(r,q)·Ws(q,j)  +  [neighbour term]  +  b(j).
  The two programs differ only in the neighbour term: one scales the finished product, c(r) · Σ_q a(r,q)·Wn(q,j);
  the other scales the aggregate's row first, Σ_q (a(r,q)·c(r))·Wn(q,j).  On the extended reals a factor moves across
  a finite sum when it is non-negative and not +∞ (no other finiteness is needed: products commute and associate
  everywhere), and the per-node scale here is a reciprocal of something at least one, so it lies in [0, 1].

  The network is three such layers, the first two followed by max(·, 0), each layer's aggregate being some fixed
  function `Agg` of the layer's input; the law lifts layer by layer, for any `Agg` whatever.
-/
import Idealize.ShloMosaic.Lib.ValueIdx
import Idealize.ShloMosaic.PureOps.Ideal.Laws

noncomputable section

namespace Cert.Sage

open Idealize.ShloMosaic Idealize.ShloMosaic.ValueIdx

/-- A matrix of extended reals with `a` rows and `b` columns, as an array of that shape. -/
abbrev Mat (a b : ℕ) := (⟨2, ![a, b]⟩ : Shape).Idx → EReal
/-- A vector of extended reals with `a` entries. -/
abbrev Vc (a : ℕ) := (⟨1, ![a]⟩ : Shape).Idx → EReal

variable {n k d : ℕ}

/-- The layer with the scale applied to the finished neighbour product. -/
def layK (h a : Mat n k) (c : Vc n) (Ws Wn : Mat k d) (b : Vc d) : Mat n d := fun i =>
  (∑ q : Fin k, h (ix2 (i 0) q) * Ws (ix2 q (i 1)) + c (ix1 (i 0)) * ∑ q : Fin k, a (ix2 (i 0) q) * Wn (ix2 q (i 1)))
    + b (ix1 (i 1))

/-- The layer with the scale applied to the aggregate's row before the product. -/
def layR (h a : Mat n k) (c : Vc n) (Ws Wn : Mat k d) (b : Vc d) : Mat n d := fun i =>
  (∑ q : Fin k, h (ix2 (i 0) q) * Ws (ix2 q (i 1)) + ∑ q : Fin k, (a (ix2 (i 0) q) * c (ix1 (i 0))) * Wn (ix2 q (i 1)))
    + b (ix1 (i 1))

/-- max(·, 0), entry by entry. -/
def relu (x : Mat n d) : Mat n d := fun i => max (x i) 0

/-- A non-negative factor other than +∞ distributes over a finite sum of extended reals. -/
theorem mul_sum_of_nonneg {ι : Type} (s : Finset ι) (f : ι → EReal) (c : EReal) (h0 : 0 ≤ c) (ht : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- THE LAW: with every scale in [0, +∞) the two layers are one function. -/
theorem layK_eq_layR (h a : Mat n k) (c : Vc n) (Ws Wn : Mat k d) (b : Vc d)
    (hc : ∀ r, 0 ≤ c r ∧ c r ≠ ⊤) : layK h a c Ws Wn b = layR h a c Ws Wn b := by
  funext i
  unfold layK layR
  rw [mul_sum_of_nonneg _ _ _ (hc _).1 (hc _).2]
  refine congrArg (fun z => (∑ q : Fin k, h (ix2 (i 0) q) * Ws (ix2 q (i 1)) + z) + b (ix1 (i 1))) ?_
  refine Finset.sum_congr rfl fun q _ => ?_
  rw [← mul_assoc, mul_comm (c (ix1 (i 0)))]

/-- The network with the scale after each neighbour product. -/
def netK (Agg : Mat n k → Mat n k) (c : Vc n) (X : Mat n k) (W1s W1n : Mat k k) (b1 : Vc k) (W2s W2n : Mat k k) (b2 : Vc k)
    (W3s W3n : Mat k d) (b3 : Vc d) : Mat n d :=
  layK (relu (layK (relu (layK X (Agg X) c W1s W1n b1)) (Agg (relu (layK X (Agg X) c W1s W1n b1))) c W2s W2n b2))
    (Agg (relu (layK (relu (layK X (Agg X) c W1s W1n b1)) (Agg (relu (layK X (Agg X) c W1s W1n b1))) c W2s W2n b2))) c W3s W3n b3

/-- The network with the scale before each neighbour product. -/
def netR (Agg : Mat n k → Mat n k) (c : Vc n) (X : Mat n k) (W1s W1n : Mat k k) (b1 : Vc k) (W2s W2n : Mat k k) (b2 : Vc k)
    (W3s W3n : Mat k d) (b3 : Vc d) : Mat n d :=
  layR (relu (layR (relu (layR X (Agg X) c W1s W1n b1)) (Agg (relu (layR X (Agg X) c W1s W1n b1))) c W2s W2n b2))
    (Agg (relu (layR (relu (layR X (Agg X) c W1s W1n b1)) (Agg (relu (layR X (Agg X) c W1s W1n b1))) c W2s W2n b2))) c W3s W3n b3

/-- The two networks are one function when every scale lies in [0, +∞). -/
theorem netK_eq_netR (Agg : Mat n k → Mat n k) (c : Vc n) (X : Mat n k) (W1s W1n : Mat k k) (b1 : Vc k)
    (W2s W2n : Mat k k) (b2 : Vc k) (W3s W3n : Mat k d) (b3 : Vc d) (hc : ∀ r, 0 ≤ c r ∧ c r ≠ ⊤) :
    netK Agg c X W1s W1n b1 W2s W2n b2 W3s W3n b3 = netR Agg c X W1s W1n b1 W2s W2n b2 W3s W3n b3 := by
  unfold netK netR
  simp only [layK_eq_layR _ _ _ _ _ _ hc]

/-- The reciprocal of max(x, 1), computed as 1 · (max(x, 1))⁻¹, lies in [0, +∞) for every extended real `x`. -/
theorem recip_max_one_mem (x : EReal) : 0 ≤ Ideal.div 1 (max x 1) ∧ Ideal.div 1 (max x 1) ≠ ⊤ := by
  have h1 : (1 : EReal) ≤ max x 1 := le_max_right _ _
  have hpos : (0 : EReal) < max x 1 := lt_of_lt_of_le zero_lt_one h1
  have hne : max x 1 ≠ 0 := ne_of_gt hpos
  rw [Ideal.div, if_neg hne, one_mul]
  refine ⟨EReal.inv_nonneg_of_nonneg hpos.le, ?_⟩
  intro htop
  have : (max x 1)⁻¹ ≤ 1 := by
    rcases eq_or_ne (max x 1) ⊤ with e | e
    · rw [e, EReal.inv_top]; exact zero_le_one
    · lift max x 1 to ℝ using ⟨e, ne_bot_of_gt hpos⟩ with y hy
      rw [← EReal.coe_inv]
      have hy1 : (1 : ℝ) ≤ y := by exact_mod_cast h1
      exact_mod_cast inv_le_one_of_one_le₀ hy1
  rw [htop] at this
  exact absurd (top_le_iff.mp this) (ne_of_lt (EReal.coe_lt_top 1))

end Cert.Sage

end
-- ==== Proof.KBlocks.lean ====
/-
  Each region's output array after its run, as ONE function of the arrays its six input windows read.

  A region runs the dense kernel at 20 grid points; point `t` reads rows `5000·t … 5000·t + 4999` of the node matrix, of
  the neighbour aggregate and of the column of scales, the whole weight matrices and the bias row, and writes back the
  same rows of the output. So what point `t` writes back is block `t` of the layer function of the whole arrays, the 20
  blocks cover every row, and the output array ends at that function. Stated for ANY contents `V` the region is
  entered from, so that the run can instantiate it at each region's entry contents.
-/
import proofs.«142328_j7146825581283_2_alg».proof.Proof.GenPFrameKI
import proofs.«142328_j7146825581283_2_alg».proof.Proof.KPay
import proofs.«142328_j7146825581283_2_alg».proof.Proof.Spec
import Idealize.ShloMosaic.Lib.Pipeline.Value
import Idealize.ShloMosaic.Lib.ValueIdx

set_option maxRecDepth 16384

noncomputable section

namespace Cert.KernelIdeal.Blocks

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.GenP Cert.Sage

/-- The origin of a rank-2 rectangle. -/
theorem hz : (![0, 0] : Fin 2 → Nat) = fun _ => 0 := funext fun a => by fin_cases a <;> rfl

/-- The scales as a vector, read off a `[n, 1]` column. -/
def colOf {n : ℕ} (A : Mat n 1) : Vc n := fun r => A (ix2 (r 0) (0 : Fin 1))
/-- The bias as a vector, read off a `[1, d]` row. -/
def rowOf {d : ℕ} (A : Mat 1 d) : Vc d := fun j => A (ix2 (0 : Fin 1) (j 0))

/-! ## Region 0 -/

/-- What region 0's output array holds after the run, as one function of the six arrays its windows read:
    the layer followed by max(·, 0), the scales read off the `[n, 1]` column and the bias off the `[1, d]` row. -/
def G0 (A0 A1 : Mat 100000 128) (A2 : Mat 100000 1) (A3 A4 : Mat 128 128) (A5 : Mat 1 128) : Mat 100000 128 :=
  Cert.Sage.relu (Cert.Sage.layK A0 A1 (colOf A2) A3 A4 (rowOf A5))

/-- The printed index maps, decided over the 20 grid points: the three row-blocked inputs move with the output's row
    block, the weights and the bias stay at block (0, 0), and the output's row block is below 20. -/
theorem idx_facts0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 19 ∧ win0_6.index t (1 : Fin 2) = 0 :=
  (by decide +kernel : ∀ t : Fin grid0.N, _)

/-- Every one of the 20 row blocks is some grid point's. -/
theorem idx_onto0 : ∀ q0 : Fin 20, ∃ t : Fin cfg0.N, win0_6.index t = ![q0.val, 0] :=
  (by decide +kernel : ∀ q0 : Fin 20, ∃ t : Fin grid0.N, win0_6.index t = ![q0.val, 0])

/-- One grid point's stored block is the matching block of rows of `G0`: stated over VARIABLES — the loaded
    blocks `x·`, the arrays `A·`, the row block `b` — with the blocks' entries given by coordinates. -/
theorem pay0_block (A0 A1 : Mat 100000 128) (A2 : Mat 100000 1) (A3 A4 : Mat 128 128) (A5 : Mat 1 128)
    (x0 : Vec Ideal S5000x128 .f32) (x1 : Vec Ideal S5000x128 .f32) (x2 : Vec Ideal S5000x1 .f32) (x3 x4 : Vec Ideal S128x128 .f32)
    (x5 : Vec Ideal S1x128 .f32) (b : ℕ) (hb : b ≤ 19)
    (h0 : ∀ (p : Fin 5000) (q : Fin 128), x0 (ix2 p q) = A0 (ix2 (⟨b * 5000 + p.val, by have := p.isLt; omega⟩ : Fin 100000) q))
    (h1 : ∀ (p : Fin 5000) (q : Fin 128), x1 (ix2 p q) = A1 (ix2 (⟨b * 5000 + p.val, by have := p.isLt; omega⟩ : Fin 100000) q))
    (h2 : ∀ (p : Fin 5000), x2 (ix2 p (0 : Fin 1)) = A2 (ix2 (⟨b * 5000 + p.val, by have := p.isLt; omega⟩ : Fin 100000) (0 : Fin 1)))
    (h3 : x3 = A3) (h4 : x4 = A4) (h5 : x5 = A5) (p : Fin 5000) (j : Fin 128) :
    k0_pay1 (F := Ideal) x0 x1 x3 x4 x2 x5 (ix2 p j)
      = G0 A0 A1 A2 A3 A4 A5 (ix2 (⟨b * 5000 + p.val, by have := p.isLt; omega⟩ : Fin 100000) j) := by
  refine (Cert.KernelIdeal.Pay.pay0_apply x0 x1 x3 x4 x2 x5 p j).trans ?_
  subst h3 h4 h5
  simp only [h0, h1, h2]
  rfl

set_option maxHeartbeats 1000000 in
/-- WHAT POINT `t` WRITES BACK is block `t` of `G0` of the arrays as the region finds them. -/
theorem flushed0_eq (V : (c : Dev nD) → (b : Ref sig .tc) → Buf (Elt Ideal) ((c : Thread nD τ).loc b)) (c : Dev nD) (t : Fin cfg0.N) :
    (dat0 V c).flushed 6 t = ((cfg0.win 6).blk t).view.read (Elt Ideal)
      (G0 (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S5000x1) hz,
    View.ld_unit_zero (S := S1x128) hz]
  obtain ⟨e00, e01, e10, e11, e20, e21, e30, e31, e40, e41, e50, e51, e6, e61⟩ := idx_facts0 t
  funext y
  obtain ⟨p, j, rfl⟩ : ∃ (p : Fin 5000) (j : Fin 128), y = ix2 p j := ⟨y 0, y 1, eq_ix2 y⟩
  refine (pay0_block (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))
    (iblk0 V c 0 t) (iblk0 V c 1 t) (iblk0 V c 2 t) (iblk0 V c 3 t) (iblk0 V c 4 t) (iblk0 V c 5 t)
    (win0_6.index t (0 : Fin 2)) e6 ?_ ?_ ?_ ?_ ?_ ?_ p j).trans ?_
  · intro p q
    show V c (Pipeline.arrRef spec0 0) (((cfg0.win 0).blk t).view.emb (ix2 p q)) = _
    refine congrArg _ (funext fun a => Fin.ext ?_)
    match a with
    | ⟨0, _⟩ => show win0_0.index t (0 : Fin 2) * 5000 + 1 * p.val = win0_6.index t (0 : Fin 2) * 5000 + p.val; omega
    | ⟨1, _⟩ => show win0_0.index t (1 : Fin 2) * 128 + 1 * q.val = q.val; omega
  · intro p q
    show V c (Pipeline.arrRef spec0 1) (((cfg0.win 1).blk t).view.emb (ix2 p q)) = _
    refine congrArg _ (funext fun a => Fin.ext ?_)
    match a with
    | ⟨0, _⟩ => show win0_1.index t (0 : Fin 2) * 5000 + 1 * p.val = win0_6.index t (0 : Fin 2) * 5000 + p.val; omega
    | ⟨1, _⟩ => show win0_1.index t (1 : Fin 2) * 128 + 1 * q.val = q.val; omega
  · intro p
    show V c (Pipeline.arrRef spec0 2) (((cfg0.win 2).blk t).view.emb (ix2 p (0 : Fin 1))) = _
    refine congrArg _ (funext fun a => Fin.ext ?_)
    match a with
    | ⟨0, _⟩ => show win0_2.index t (0 : Fin 2) * 5000 + 1 * p.val = win0_6.index t (0 : Fin 2) * 5000 + p.val; omega
    | ⟨1, _⟩ => show win0_2.index t (1 : Fin 2) * 1 + 1 * 0 = 0; omega
  · funext z
    show V c (Pipeline.arrRef spec0 3) (((cfg0.win 3).blk t).view.emb z) = _
    refine congrArg _ (funext fun a => Fin.ext ?_)
    match a with
    | ⟨0, _⟩ => show win0_3.index t (0 : Fin 2) * 128 + 1 * (z 0).val = (z 0).val; omega
    | ⟨1, _⟩ => show win0_3.index t (1 : Fin 2) * 128 + 1 * (z 1).val = (z 1).val; omega
  · funext z
    show V c (Pipeline.arrRef spec0 4) (((cfg0.win 4).blk t).view.emb z) = _
    refine congrArg _ (funext fun a => Fin.ext ?_)
    match a with
    | ⟨0, _⟩ => show win0_4.index t (0 : Fin 2) * 128 + 1 * (z 0).val = (z 0).val; omega
    | ⟨1, _⟩ => show win0_4.index t (1 : Fin 2) * 128 + 1 * (z 1).val = (z 1).val; omega
  · funext z
    show V c (Pipeline.arrRef spec0 5) (((cfg0.win 5).blk t).view.emb z) = _
    refine congrArg _ (funext fun a => Fin.ext ?_)
    match a with
    | ⟨0, _⟩ => show win0_5.index t (0 : Fin 2) * 1 + 1 * (z 0).val = (z 0).val; omega
    | ⟨1, _⟩ => show win0_5.index t (1 : Fin 2) * 128 + 1 * (z 1).val = (z 1).val; omega
  · refine congrArg _ (funext fun a => Fin.ext ?_)
    match a with
    | ⟨0, _⟩ => show win0_6.index t (0 : Fin 2) * 5000 + p.val = win0_6.index t (0 : Fin 2) * 5000 + 1 * p.val; omega
    | ⟨1, _⟩ => show j.val = win0_6.index t (1 : Fin 2) * 128 + 1 * j.val; omega

/-- An index of the output array is in point `t`'s block iff each coordinate is in the block's range on its axis. -/
theorem mem_blk0 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole (Pipeline.arrRef spec0 6)).slice (win0_6.rect t)).set ↔ _
  rw [View.set_slice_whole, Rect.mem_set_unit]
  exact Iff.rfl

/-- Every entry of the output array lies in some grid point's block: row `r` in the block of point `r / 5000`. -/
theorem cover0 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto0 ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE OUTPUT ARRAY after region 0: `G0` of the six arrays as the region finds them. -/
theorem final0 (V : (c : Dev nD) → (b : Ref sig .tc) → Buf (Elt Ideal) ((c : Thread nD τ).loc b)) (c : Dev nD) :
    (dat0 V c).arrAt 6 cfg0.N
      = G0 (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) :=
  (dat0 V c).arrAt_eq_of_cover 6 _ (fun t _ => flushed0_eq V c t) cover0

/-! ## Region 1 -/

/-- What region 1's output array holds after the run, as one function of the six arrays its windows read:
    the layer followed by max(·, 0), the scales read off the `[n, 1]` column and the bias off the `[1, d]` row. -/
def G1 (A0 A1 : Mat 100000 128) (A2 : Mat 100000 1) (A3 A4 : Mat 128 128) (A5 : Mat 1 128) : Mat 100000 128 :=
  Cert.Sage.relu (Cert.Sage.layK A0 A1 (colOf A2) A3 A4 (rowOf A5))

/-- The printed index maps, decided over the 20 grid points: the three row-blocked inputs move with the output's row
    block, the weights and the bias stay at block (0, 0), and the output's row block is below 20. -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 19 ∧ win1_6.index t (1 : Fin 2) = 0 :=
  (by decide +kernel : ∀ t : Fin grid1.N, _)

/-- Every one of the 20 row blocks is some grid point's. -/
theorem idx_onto1 : ∀ q0 : Fin 20, ∃ t : Fin cfg1.N, win1_6.index t = ![q0.val, 0] :=
  (by decide +kernel : ∀ q0 : Fin 20, ∃ t : Fin grid1.N, win1_6.index t = ![q0.val, 0])

/-- One grid point's stored block is the matching block of rows of `G1`: stated over VARIABLES — the loaded
    blocks `x·`, the arrays `A·`, the row block `b` — with the blocks' entries given by coordinates. -/
theorem pay1_block (A0 A1 : Mat 100000 128) (A2 : Mat 100000 1) (A3 A4 : Mat 128 128) (A5 : Mat 1 128)
    (x0 : Vec Ideal S5000x128 .bf16) (x1 : Vec Ideal S5000x128 .f32) (x2 : Vec Ideal S5000x1 .f32) (x3 x4 : Vec Ideal S128x128 .f32)
    (x5 : Vec Ideal S1x128 .f32) (b : ℕ) (hb : b ≤ 19)
    (h0 : ∀ (p : Fin 5000) (q : Fin 128), x0 (ix2 p q) = A0 (ix2 (⟨b * 5000 + p.val, by have := p.isLt; omega⟩ : Fin 100000) q))
    (h1 : ∀ (p : Fin 5000) (q : Fin 128), x1 (ix2 p q) = A1 (ix2 (⟨b * 5000 + p.val, by have := p.isLt; omega⟩ : Fin 100000) q))
    (h2 : ∀ (p : Fin 5000), x2 (ix2 p (0 : Fin 1)) = A2 (ix2 (⟨b * 5000 + p.val, by have := p.isLt; omega⟩ : Fin 100000) (0 : Fin 1)))
    (h3 : x3 = A3) (h4 : x4 = A4) (h5 : x5 = A5) (p : Fin 5000) (j : Fin 128) :
    k1_pay1 (F := Ideal) x0 x1 x3 x4 x2 x5 (ix2 p j)
      = G1 A0 A1 A2 A3 A4 A5 (ix2 (⟨b * 5000 + p.val, by have := p.isLt; omega⟩ : Fin 100000) j) := by
  refine (Cert.KernelIdeal.Pay.pay1_apply x0 x1 x3 x4 x2 x5 p j).trans ?_
  subst h3 h4 h5
  simp only [h0, h1, h2]
  rfl

set_option maxHeartbeats 1000000 in
/-- WHAT POINT `t` WRITES BACK is block `t` of `G1` of the arrays as the region finds them. -/
theorem flushed1_eq (V : (c : Dev nD) → (b : Ref sig .tc) → Buf (Elt Ideal) ((c : Thread nD τ).loc b)) (c : Dev nD) (t : Fin cfg1.N) :
    (dat1 V c).flushed 6 t = ((cfg1.win 6).blk t).view.read (Elt Ideal)
      (G1 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S5000x1) hz,
    View.ld_unit_zero (S := S1x128) hz]
  obtain ⟨e00, e01, e10, e11, e20, e21, e30, e31, e40, e41, e50, e51, e6, e61⟩ := idx_facts1 t
  funext y
  obtain ⟨p, j, rfl⟩ : ∃ (p : Fin 5000) (j : Fin 128), y = ix2 p j := ⟨y 0, y 1, eq_ix2 y⟩
  refine (pay1_block (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (iblk1 V c 0 t) (iblk1 V c 1 t) (iblk1 V c 2 t) (iblk1 V c 3 t) (iblk1 V c 4 t) (iblk1 V c 5 t)
    (win1_6.index t (0 : Fin 2)) e6 ?_ ?_ ?_ ?_ ?_ ?_ p j).trans ?_
  · intro p q
    show V c (Pipeline.arrRef spec1 0) (((cfg1.win 0).blk t).view.emb (ix2 p q)) = _
    refine congrArg _ (funext fun a => Fin.ext ?_)
    match a with
    | ⟨0, _⟩ => show win1_0.index t (0 : Fin 2) * 5000 + 1 * p.val = win1_6.index t (0 : Fin 2) * 5000 + p.val; omega
    | ⟨1, _⟩ => show win1_0.index t (1 : Fin 2) * 128 + 1 * q.val = q.val; omega
  · intro p q
    show V c (Pipeline.arrRef spec1 1) (((cfg1.win 1).blk t).view.emb (ix2 p q)) = _
    refine congrArg _ (funext fun a => Fin.ext ?_)
    match a with
    | ⟨0, _⟩ => show win1_1.index t (0 : Fin 2) * 5000 + 1 * p.val = win1_6.index t (0 : Fin 2) * 5000 + p.val; omega
    | ⟨1, _⟩ => show win1_1.index t (1 : Fin 2) * 128 + 1 * q.val = q.val; omega
  · intro p
    show V c (Pipeline.arrRef spec1 2) (((cfg1.win 2).blk t).view.emb (ix2 p (0 : Fin 1))) = _
    refine congrArg _ (funext fun a => Fin.ext ?_)
    match a with
    | ⟨0, _⟩ => show win1_2.index t (0 : Fin 2) * 5000 + 1 * p.val = win1_6.index t (0 : Fin 2) * 5000 + p.val; omega
    | ⟨1, _⟩ => show win1_2.index t (1 : Fin 2) * 1 + 1 * 0 = 0; omega
  · funext z
    show V c (Pipeline.arrRef spec1 3) (((cfg1.win 3).blk t).view.emb z) = _
    refine congrArg _ (funext fun a => Fin.ext ?_)
    match a with
    | ⟨0, _⟩ => show win1_3.index t (0 : Fin 2) * 128 + 1 * (z 0).val = (z 0).val; omega
    | ⟨1, _⟩ => show win1_3.index t (1 : Fin 2) * 128 + 1 * (z 1).val = (z 1).val; omega
  · funext z
    show V c (Pipeline.arrRef spec1 4) (((cfg1.win 4).blk t).view.emb z) = _
    refine congrArg _ (funext fun a => Fin.ext ?_)
    match a with
    | ⟨0, _⟩ => show win1_4.index t (0 : Fin 2) * 128 + 1 * (z 0).val = (z 0).val; omega
    | ⟨1, _⟩ => show win1_4.index t (1 : Fin 2) * 128 + 1 * (z 1).val = (z 1).val; omega
  · funext z
    show V c (Pipeline.arrRef spec1 5) (((cfg1.win 5).blk t).view.emb z) = _
    refine congrArg _ (funext fun a => Fin.ext ?_)
    match a with
    | ⟨0, _⟩ => show win1_5.index t (0 : Fin 2) * 1 + 1 * (z 0).val = (z 0).val; omega
    | ⟨1, _⟩ => show win1_5.index t (1 : Fin 2) * 128 + 1 * (z 1).val = (z 1).val; omega
  · refine congrArg _ (funext fun a => Fin.ext ?_)
    match a with
    | ⟨0, _⟩ => show win1_6.index t (0 : Fin 2) * 5000 + p.val = win1_6.index t (0 : Fin 2) * 5000 + 1 * p.val; omega
    | ⟨1, _⟩ => show j.val = win1_6.index t (1 : Fin 2) * 128 + 1 * j.val; omega

/-- An index of the output array is in point `t`'s block iff each coordinate is in the block's range on its axis. -/
theorem mem_blk1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole (Pipeline.arrRef spec1 6)).slice (win1_6.rect t)).set ↔ _
  rw [View.set_slice_whole, Rect.mem_set_unit]
  exact Iff.rfl

/-- Every entry of the output array lies in some grid point's block: row `r` in the block of point `r / 5000`. -/
theorem cover1 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := idx_onto1 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE OUTPUT ARRAY after region 1: `G1` of the six arrays as the region finds them. -/
theorem final1 (V : (c : Dev nD) → (b : Ref sig .tc) → Buf (Elt Ideal) ((c : Thread nD τ).loc b)) (c : Dev nD) :
    (dat1 V c).arrAt 6 cfg1.N
      = G1 (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (dat1 V c).arrAt_eq_of_cover 6 _ (fun t _ => flushed1_eq V c t) cover1

/-! ## Region 2 -/

/-- What region 2's output array holds after the run, as one function of the six arrays its windows read:
    the layer, the scales read off the `[n, 1]` column and the bias off the `[1, d]` row. -/
def G2 (A0 A1 : Mat 100000 128) (A2 : Mat 100000 1) (A3 A4 : Mat 128 64) (A5 : Mat 1 64) : Mat 100000 64 :=
  Cert.Sage.layK A0 A1 (colOf A2) A3 A4 (rowOf A5)

/-- The printed index maps, decided over the 20 grid points: the three row-blocked inputs move with the output's row
    block, the weights and the bias stay at block (0, 0), and the output's row block is below 20. -/
theorem idx_facts2 : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 19 ∧ win2_6.index t (1 : Fin 2) = 0 :=
  (by decide +kernel : ∀ t : Fin grid2.N, _)

/-- Every one of the 20 row blocks is some grid point's. -/
theorem idx_onto2 : ∀ q0 : Fin 20, ∃ t : Fin cfg2.N, win2_6.index t = ![q0.val, 0] :=
  (by decide +kernel : ∀ q0 : Fin 20, ∃ t : Fin grid2.N, win2_6.index t = ![q0.val, 0])

/-- One grid point's stored block is the matching block of rows of `G2`: stated over VARIABLES — the loaded
    blocks `x·`, the arrays `A·`, the row block `b` — with the blocks' entries given by coordinates. -/
theorem pay2_block (A0 A1 : Mat 100000 128) (A2 : Mat 100000 1) (A3 A4 : Mat 128 64) (A5 : Mat 1 64)
    (x0 : Vec Ideal S5000x128 .bf16) (x1 : Vec Ideal S5000x128 .f32) (x2 : Vec Ideal S5000x1 .f32) (x3 x4 : Vec Ideal S128x64 .f32)
    (x5 : Vec Ideal S1x64 .f32) (b : ℕ) (hb : b ≤ 19)
    (h0 : ∀ (p : Fin 5000) (q : Fin 128), x0 (ix2 p q) = A0 (ix2 (⟨b * 5000 + p.val, by have := p.isLt; omega⟩ : Fin 100000) q))
    (h1 : ∀ (p : Fin 5000) (q : Fin 128), x1 (ix2 p q) = A1 (ix2 (⟨b * 5000 + p.val, by have := p.isLt; omega⟩ : Fin 100000) q))
    (h2 : ∀ (p : Fin 5000), x2 (ix2 p (0 : Fin 1)) = A2 (ix2 (⟨b * 5000 + p.val, by have := p.isLt; omega⟩ : Fin 100000) (0 : Fin 1)))
    (h3 : x3 = A3) (h4 : x4 = A4) (h5 : x5 = A5) (p : Fin 5000) (j : Fin 64) :
    k2_pay1 (F := Ideal) x0 x1 x3 x4 x2 x5 (ix2 p j)
      = G2 A0 A1 A2 A3 A4 A5 (ix2 (⟨b * 5000 + p.val, by have := p.isLt; omega⟩ : Fin 100000) j) := by
  refine (Cert.KernelIdeal.Pay.pay2_apply x0 x1 x3 x4 x2 x5 p j).trans ?_
  subst h3 h4 h5
  simp only [h0, h1, h2]
  rfl

set_option maxHeartbeats 1000000 in
/-- WHAT POINT `t` WRITES BACK is block `t` of `G2` of the arrays as the region finds them. -/
theorem flushed2_eq (V : (c : Dev nD) → (b : Ref sig .tc) → Buf (Elt Ideal) ((c : Thread nD τ).loc b)) (c : Dev nD) (t : Fin cfg2.N) :
    (dat2 V c).flushed 6 t = ((cfg2.win 6).blk t).view.read (Elt Ideal)
      (G2 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero hz]
  simp only [View.ld_unit_zero (S := S5000x128) hz, View.ld_unit_zero (S := S128x64) hz, View.ld_unit_zero (S := S5000x1) hz,
    View.ld_unit_zero (S := S1x64) hz]
  obtain ⟨e00, e01, e10, e11, e20, e21, e30, e31, e40, e41, e50, e51, e6, e61⟩ := idx_facts2 t
  funext y
  obtain ⟨p, j, rfl⟩ : ∃ (p : Fin 5000) (j : Fin 64), y = ix2 p j := ⟨y 0, y 1, eq_ix2 y⟩
  refine (pay2_block (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (iblk2 V c 0 t) (iblk2 V c 1 t) (iblk2 V c 2 t) (iblk2 V c 3 t) (iblk2 V c 4 t) (iblk2 V c 5 t)
    (win2_6.index t (0 : Fin 2)) e6 ?_ ?_ ?_ ?_ ?_ ?_ p j).trans ?_
  · intro p q
    show V c (Pipeline.arrRef spec2 0) (((cfg2.win 0).blk t).view.emb (ix2 p q)) = _
    refine congrArg _ (funext fun a => Fin.ext ?_)
    match a with
    | ⟨0, _⟩ => show win2_0.index t (0 : Fin 2) * 5000 + 1 * p.val = win2_6.index t (0 : Fin 2) * 5000 + p.val; omega
    | ⟨1, _⟩ => show win2_0.index t (1 : Fin 2) * 128 + 1 * q.val = q.val; omega
  · intro p q
    show V c (Pipeline.arrRef spec2 1) (((cfg2.win 1).blk t).view.emb (ix2 p q)) = _
    refine congrArg _ (funext fun a => Fin.ext ?_)
    match a with
    | ⟨0, _⟩ => show win2_1.index t (0 : Fin 2) * 5000 + 1 * p.val = win2_6.index t (0 : Fin 2) * 5000 + p.val; omega
    | ⟨1, _⟩ => show win2_1.index t (1 : Fin 2) * 128 + 1 * q.val = q.val; omega
  · intro p
    show V c (Pipeline.arrRef spec2 2) (((cfg2.win 2).blk t).view.emb (ix2 p (0 : Fin 1))) = _
    refine congrArg _ (funext fun a => Fin.ext ?_)
    match a with
    | ⟨0, _⟩ => show win2_2.index t (0 : Fin 2) * 5000 + 1 * p.val = win2_6.index t (0 : Fin 2) * 5000 + p.val; omega
    | ⟨1, _⟩ => show win2_2.index t (1 : Fin 2) * 1 + 1 * 0 = 0; omega
  · funext z
    show V c (Pipeline.arrRef spec2 3) (((cfg2.win 3).blk t).view.emb z) = _
    refine congrArg _ (funext fun a => Fin.ext ?_)
    match a with
    | ⟨0, _⟩ => show win2_3.index t (0 : Fin 2) * 128 + 1 * (z 0).val = (z 0).val; omega
    | ⟨1, _⟩ => show win2_3.index t (1 : Fin 2) * 64 + 1 * (z 1).val = (z 1).val; omega
  · funext z
    show V c (Pipeline.arrRef spec2 4) (((cfg2.win 4).blk t).view.emb z) = _
    refine congrArg _ (funext fun a => Fin.ext ?_)
    match a with
    | ⟨0, _⟩ => show win2_4.index t (0 : Fin 2) * 128 + 1 * (z 0).val = (z 0).val; omega
    | ⟨1, _⟩ => show win2_4.index t (1 : Fin 2) * 64 + 1 * (z 1).val = (z 1).val; omega
  · funext z
    show V c (Pipeline.arrRef spec2 5) (((cfg2.win 5).blk t).view.emb z) = _
    refine congrArg _ (funext fun a => Fin.ext ?_)
    match a with
    | ⟨0, _⟩ => show win2_5.index t (0 : Fin 2) * 1 + 1 * (z 0).val = (z 0).val; omega
    | ⟨1, _⟩ => show win2_5.index t (1 : Fin 2) * 64 + 1 * (z 1).val = (z 1).val; omega
  · refine congrArg _ (funext fun a => Fin.ext ?_)
    match a with
    | ⟨0, _⟩ => show win2_6.index t (0 : Fin 2) * 5000 + p.val = win2_6.index t (0 : Fin 2) * 5000 + 1 * p.val; omega
    | ⟨1, _⟩ => show j.val = win2_6.index t (1 : Fin 2) * 64 + 1 * j.val; omega

/-- An index of the output array is in point `t`'s block iff each coordinate is in the block's range on its axis. -/
theorem mem_blk2 (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole (Pipeline.arrRef spec2 6)).slice (win2_6.rect t)).set ↔ _
  rw [View.set_slice_whole, Rect.mem_set_unit]
  exact Iff.rfl

/-- Every entry of the output array lies in some grid point's block: row `r` in the block of point `r / 5000`. -/
theorem cover2 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  obtain ⟨t, ht⟩ := idx_onto2 ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-- THE OUTPUT ARRAY after region 2: `G2` of the six arrays as the region finds them. -/
theorem final2 (V : (c : Dev nD) → (b : Ref sig .tc) → Buf (Elt Ideal) ((c : Thread nD τ).loc b)) (c : Dev nD) :
    (dat2 V c).arrAt 6 cfg2.N
      = G2 (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) :=
  (dat2 V c).arrAt_eq_of_cover 6 _ (fun t _ => flushed2_eq V c t) cover2

end Cert.KernelIdeal.Blocks

end
-- ==== Proof.KFold.lean ====
/-
  The idealized kernel's result array as the network of its arguments.

  The buffer contents at the six boundaries of @main are read one after the other. A host stretch computes the
  vector of reciprocal clamped in-degrees (once, before the first region), each layer's neighbour aggregate — gather the
  rows of the layer's input named by the wrapped source indices, add them into the rows named by the destination
  indices —, and the bias as a `[1, d]` row; a region leaves its output array at the layer function of its six input
  arrays and everything else as it was. Composed, the result array is three layers, each scaled AFTER its neighbour
  product, the first two followed by max(·, 0).
-/
import proofs.«142328_j7146825581283_2_alg».proof.Proof.KBlocks
import Idealize.ShloMosaic.Lib.StableHlo.Run
import Idealize.ShloMosaic.Lib.Pipeline.Value
import Idealize.ShloMosaic.PureOps.Ideal

set_option maxRecDepth 16384

noncomputable section

namespace Cert.KernelIdeal.Fold

open Idealize.ShloMosaic Idealize.ShloMosaic.ValueIdx Idealize.ShloMosaic.TcCoe Idealize.SL.Sem Idealize.ShloMosaic.StableHlo
open Cert.KernelIdeal Cert.KernelIdeal.Gen Cert.KernelIdeal.GenP Cert.KernelIdeal.Blocks Cert.Sage

/-- An array of edge indices. -/
abbrev Edges := (⟨S1600000, .i32⟩ : BufTy).Contents (Elt Ideal)

/-- The source indices as row starts: a negative index wrapped by the number of nodes, one start per edge. -/
def srcRows (a10 : Edges) : (⟨S1600000x1, .i32⟩ : BufTy).Contents (Elt Ideal) :=
  broadcastInDim S1600000x1 ![0] bcast_S1600000_S1600000x1_0
    (select (cmpi .slt a10 (broadcastInDim S1600000 ![] bcast_S_S1600000 (constantI S_ 32 0#32)))
      (addi a10 (broadcastInDim S1600000 ![] bcast_S_S1600000 (constantI S_ 32 100000#32))) a10)

/-- The neighbour aggregation of a node matrix `h`: gather the rows the source indices name, add them into the rows
    the destination indices name, starting from zero. -/
def aggK (a10 a11 : Edges) (h : Mat 100000 128) : Mat 100000 128 :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 a11)
    (Host.gather gather_S100000x128_S1600000x1_S1600000x128_1_0_n_n_0_1_1128 h (srcRows a10))

/-- The reciprocal of each node's in-degree clamped below at one: ones added into the destination rows, max with one,
    one divided by that. -/
def invDeg (a11 : Edges) : Vc 100000 :=
  Host.divf (F := Ideal) (φ := .f32) (broadcastInDim S100000 ![] bcast_S_S100000 (constant (F := Ideal) S_ .f32 0x3F800000#32))
    (maximumf
      (Host.scatterAdd (F := Ideal) (φ := .f32) scatter_S100000_S1600000x1_S1600000_n_0_0_1
        (broadcastInDim S100000 ![] bcast_S_S100000 (constant (F := Ideal) S_ .f32 0x00000000#32))
        (broadcastInDim S1600000x1 ![0] bcast_S1600000_S1600000x1_0 a11)
        (broadcastInDim S1600000 ![] bcast_S_S1600000 (constant (F := Ideal) S_ .f32 0x3F800000#32)))
      (broadcastInDim S100000 ![] bcast_S_S100000 (constant (F := Ideal) S_ .f32 0x3F800000#32)))

/-- The scales as the `[n, 1]` column the regions read. -/
def scaleCol (a11 : Edges) : Mat 100000 1 := shapeCast S100000x1 (invDeg a11) shapeCasts_S100000_S100000x1
/-- A bias as the `[1, 128]` row the first two regions read. -/
def biasRow128 (b : Vc 128) : Mat 1 128 := shapeCast S1x128 b shapeCasts_S128_S1x128
/-- A bias as the `[1, 64]` row the third region reads. -/
def biasRow64 (b : Vc 64) : Mat 1 64 := shapeCast S1x64 b shapeCasts_S64_S1x64

/-- Widening a float format is the identity on the extended reals. -/
theorem extf_ideal {s : Shape} (v : FVec Ideal s .bf16) (h : FTy.bf16.bits < FTy.f32.bits) :
    (extf .f32 v h : FVec Ideal s .f32) = v := rfl

variable (m : (ℓ : Loc nD τ sig) → Buf (Elt Ideal) ℓ) (ρ : Dev nD → PrngReg) (c : Dev nD)

/-! ## Boundary 1: after the first host stretch -/

set_option maxHeartbeats 1000000 in
theorem W1_v8 : W1 m ρ c (Proc.devRef .tc main_v8) = scaleCol (m ((c : Thread nD τ).loc main_arg11)) := by
  show StableHlo.after hostOps0 (W0 m ρ c) (Proc.devRef .tc main_v8) = _
  dsimp only [hostOps0]
  after_results <;> (try rw [extf_ideal]) <;> rfl
set_option maxHeartbeats 1000000 in
theorem W1_v18 : W1 m ρ c (Proc.devRef .tc main_v18) = aggK (m ((c : Thread nD τ).loc main_arg10)) (m ((c : Thread nD τ).loc main_arg11)) (m ((c : Thread nD τ).loc main_arg0)) := by
  show StableHlo.after hostOps0 (W0 m ρ c) (Proc.devRef .tc main_v18) = _
  dsimp only [hostOps0]
  after_results <;> (try rw [extf_ideal]) <;> rfl
set_option maxHeartbeats 1000000 in
theorem W1_v19 : W1 m ρ c (Proc.devRef .tc main_v19) = biasRow128 (m ((c : Thread nD τ).loc main_arg3)) := by
  show StableHlo.after hostOps0 (W0 m ρ c) (Proc.devRef .tc main_v19) = _
  dsimp only [hostOps0]
  after_results <;> (try rw [extf_ideal]) <;> rfl
set_option maxHeartbeats 1000000 in
theorem W1_arg0 : W1 m ρ c (Proc.devRef .tc main_arg0) = (m ((c : Thread nD τ).loc main_arg0)) := by
  show StableHlo.after hostOps0 (W0 m ρ c) (Proc.devRef .tc main_arg0) = _
  dsimp only [hostOps0]
  after_results <;> (try rw [extf_ideal]) <;> rfl
set_option maxHeartbeats 1000000 in
theorem W1_arg1 : W1 m ρ c (Proc.devRef .tc main_arg1) = (m ((c : Thread nD τ).loc main_arg1)) := by
  show StableHlo.after hostOps0 (W0 m ρ c) (Proc.devRef .tc main_arg1) = _
  dsimp only [hostOps0]
  after_results <;> (try rw [extf_ideal]) <;> rfl
set_option maxHeartbeats 1000000 in
theorem W1_arg2 : W1 m ρ c (Proc.devRef .tc main_arg2) = (m ((c : Thread nD τ).loc main_arg2)) := by
  show StableHlo.after hostOps0 (W0 m ρ c) (Proc.devRef .tc main_arg2) = _
  dsimp only [hostOps0]
  after_results <;> (try rw [extf_ideal]) <;> rfl
set_option maxHeartbeats 1000000 in
theorem W1_arg4 : W1 m ρ c (Proc.devRef .tc main_arg4) = (m ((c : Thread nD τ).loc main_arg4)) := by
  show StableHlo.after hostOps0 (W0 m ρ c) (Proc.devRef .tc main_arg4) = _
  dsimp only [hostOps0]
  after_results <;> (try rw [extf_ideal]) <;> rfl
set_option maxHeartbeats 1000000 in
theorem W1_arg5 : W1 m ρ c (Proc.devRef .tc main_arg5) = (m ((c : Thread nD τ).loc main_arg5)) := by
  show StableHlo.after hostOps0 (W0 m ρ c) (Proc.devRef .tc main_arg5) = _
  dsimp only [hostOps0]
  after_results <;> (try rw [extf_ideal]) <;> rfl
set_option maxHeartbeats 1000000 in
theorem W1_arg6 : W1 m ρ c (Proc.devRef .tc main_arg6) = (m ((c : Thread nD τ).loc main_arg6)) := by
  show StableHlo.after hostOps0 (W0 m ρ c) (Proc.devRef .tc main_arg6) = _
  dsimp only [hostOps0]
  after_results <;> (try rw [extf_ideal]) <;> rfl
set_option maxHeartbeats 1000000 in
theorem W1_arg7 : W1 m ρ c (Proc.devRef .tc main_arg7) = (m ((c : Thread nD τ).loc main_arg7)) := by
  show StableHlo.after hostOps0 (W0 m ρ c) (Proc.devRef .tc main_arg7) = _
  dsimp only [hostOps0]
  after_results <;> (try rw [extf_ideal]) <;> rfl
set_option maxHeartbeats 1000000 in
theorem W1_arg8 : W1 m ρ c (Proc.devRef .tc main_arg8) = (m ((c : Thread nD τ).loc main_arg8)) := by
  show StableHlo.after hostOps0 (W0 m ρ c) (Proc.devRef .tc main_arg8) = _
  dsimp only [hostOps0]
  after_results <;> (try rw [extf_ideal]) <;> rfl
set_option maxHeartbeats 1000000 in
theorem W1_arg9 : W1 m ρ c (Proc.devRef .tc main_arg9) = (m ((c : Thread nD τ).loc main_arg9)) := by
  show StableHlo.after hostOps0 (W0 m ρ c) (Proc.devRef .tc main_arg9) = _
  dsimp only [hostOps0]
  after_results <;> (try rw [extf_ideal]) <;> rfl
set_option maxHeartbeats 1000000 in
theorem W1_arg10 : W1 m ρ c (Proc.devRef .tc main_arg10) = (m ((c : Thread nD τ).loc main_arg10)) := by
  show StableHlo.after hostOps0 (W0 m ρ c) (Proc.devRef .tc main_arg10) = _
  dsimp only [hostOps0]
  after_results <;> (try rw [extf_ideal]) <;> rfl
set_option maxHeartbeats 1000000 in
theorem W1_arg11 : W1 m ρ c (Proc.devRef .tc main_arg11) = (m ((c : Thread nD τ).loc main_arg11)) := by
  show StableHlo.after hostOps0 (W0 m ρ c) (Proc.devRef .tc main_arg11) = _
  dsimp only [hostOps0]
  after_results <;> (try rw [extf_ideal]) <;> rfl

/-! ## Boundary 2: after region 0 -/

theorem W2_v20 : W2 m ρ c (Proc.devRef .tc main_v20)
    = G0 (m ((c : Thread nD τ).loc main_arg0)) (aggK (m ((c : Thread nD τ).loc main_arg10)) (m ((c : Thread nD τ).loc main_arg11)) (m ((c : Thread nD τ).loc main_arg0))) (scaleCol (m ((c : Thread nD τ).loc main_arg11))) (m ((c : Thread nD τ).loc main_arg1)) (m ((c : Thread nD τ).loc main_arg2)) (biasRow128 (m ((c : Thread nD τ).loc main_arg3))) := by
  refine ((W2_arr m ρ c 6).trans (final0 (V1 m ρ) c)).trans ?_
  show G0 (W1 m ρ c (Proc.devRef .tc main_arg0)) (W1 m ρ c (Proc.devRef .tc main_v18)) (W1 m ρ c (Proc.devRef .tc main_v8))
    (W1 m ρ c (Proc.devRef .tc main_arg1)) (W1 m ρ c (Proc.devRef .tc main_arg2)) (W1 m ρ c (Proc.devRef .tc main_v19)) = _
  rw [W1_arg0, W1_v18, W1_v8, W1_arg1, W1_arg2, W1_v19]
theorem W2_v8 : W2 m ρ c (Proc.devRef .tc main_v8) = scaleCol (m ((c : Thread nD τ).loc main_arg11)) :=
  ((W2_arr m ρ c 2).trans (((dat0 (V1 m ρ) c).arrAt_in 2 rfl _).trans (A_eq0 (V1 m ρ) c 2))).trans (W1_v8 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_arg9 : W2 m ρ c (Proc.devRef .tc main_arg9) = (m ((c : Thread nD τ).loc main_arg9)) :=
  (W2_of_ne m ρ c main_arg9 (by decide)).trans (W1_arg9 m ρ c)
theorem W2_arg10 : W2 m ρ c (Proc.devRef .tc main_arg10) = (m ((c : Thread nD τ).loc main_arg10)) :=
  (W2_of_ne m ρ c main_arg10 (by decide)).trans (W1_arg10 m ρ c)
theorem W2_arg11 : W2 m ρ c (Proc.devRef .tc main_arg11) = (m ((c : Thread nD τ).loc main_arg11)) :=
  (W2_of_ne m ρ c main_arg11 (by decide)).trans (W1_arg11 m ρ c)

/-! ## Boundary 3: after the second host stretch -/

set_option maxHeartbeats 1000000 in
theorem W3_v31 : W3 m ρ c (Proc.devRef .tc main_v31) = aggK (W2 m ρ c (Proc.devRef .tc main_arg10)) (W2 m ρ c (Proc.devRef .tc main_arg11)) (W2 m ρ c (Proc.devRef .tc main_v20)) := by
  show StableHlo.after hostOps1 (W2 m ρ c) (Proc.devRef .tc main_v31) = _
  dsimp only [hostOps1]
  after_results <;> (try rw [extf_ideal]) <;> rfl
set_option maxHeartbeats 1000000 in
theorem W3_v32 : W3 m ρ c (Proc.devRef .tc main_v32) = biasRow128 (W2 m ρ c (Proc.devRef .tc main_arg6)) := by
  show StableHlo.after hostOps1 (W2 m ρ c) (Proc.devRef .tc main_v32) = _
  dsimp only [hostOps1]
  after_results <;> (try rw [extf_ideal]) <;> rfl
set_option maxHeartbeats 1000000 in
theorem W3_v20 : W3 m ρ c (Proc.devRef .tc main_v20) = W2 m ρ c (Proc.devRef .tc main_v20) := by
  show StableHlo.after hostOps1 (W2 m ρ c) (Proc.devRef .tc main_v20) = _
  dsimp only [hostOps1]
  after_results <;> (try rw [extf_ideal]) <;> rfl
set_option maxHeartbeats 1000000 in
theorem W3_v8 : W3 m ρ c (Proc.devRef .tc main_v8) = W2 m ρ c (Proc.devRef .tc main_v8) := by
  show StableHlo.after hostOps1 (W2 m ρ c) (Proc.devRef .tc main_v8) = _
  dsimp only [hostOps1]
  after_results <;> (try rw [extf_ideal]) <;> rfl
set_option maxHeartbeats 1000000 in
theorem W3_arg4 : W3 m ρ c (Proc.devRef .tc main_arg4) = W2 m ρ c (Proc.devRef .tc main_arg4) := by
  show StableHlo.after hostOps1 (W2 m ρ c) (Proc.devRef .tc main_arg4) = _
  dsimp only [hostOps1]
  after_results <;> (try rw [extf_ideal]) <;> rfl
set_option maxHeartbeats 1000000 in
theorem W3_arg5 : W3 m ρ c (Proc.devRef .tc main_arg5) = W2 m ρ c (Proc.devRef .tc main_arg5) := by
  show StableHlo.after hostOps1 (W2 m ρ c) (Proc.devRef .tc main_arg5) = _
  dsimp only [hostOps1]
  after_results <;> (try rw [extf_ideal]) <;> rfl
set_option maxHeartbeats 1000000 in
theorem W3_arg7 : W3 m ρ c (Proc.devRef .tc main_arg7) = W2 m ρ c (Proc.devRef .tc main_arg7) := by
  show StableHlo.after hostOps1 (W2 m ρ c) (Proc.devRef .tc main_arg7) = _
  dsimp only [hostOps1]
  after_results <;> (try rw [extf_ideal]) <;> rfl
set_option maxHeartbeats 1000000 in
theorem W3_arg8 : W3 m ρ c (Proc.devRef .tc main_arg8) = W2 m ρ c (Proc.devRef .tc main_arg8) := by
  show StableHlo.after hostOps1 (W2 m ρ c) (Proc.devRef .tc main_arg8) = _
  dsimp only [hostOps1]
  after_results <;> (try rw [extf_ideal]) <;> rfl
set_option maxHeartbeats 1000000 in
theorem W3_arg9 : W3 m ρ c (Proc.devRef .tc main_arg9) = W2 m ρ c (Proc.devRef .tc main_arg9) := by
  show StableHlo.after hostOps1 (W2 m ρ c) (Proc.devRef .tc main_arg9) = _
  dsimp only [hostOps1]
  after_results <;> (try rw [extf_ideal]) <;> rfl
set_option maxHeartbeats 1000000 in
theorem W3_arg10 : W3 m ρ c (Proc.devRef .tc main_arg10) = W2 m ρ c (Proc.devRef .tc main_arg10) := by
  show StableHlo.after hostOps1 (W2 m ρ c) (Proc.devRef .tc main_arg10) = _
  dsimp only [hostOps1]
  after_results <;> (try rw [extf_ideal]) <;> rfl
set_option maxHeartbeats 1000000 in
theorem W3_arg11 : W3 m ρ c (Proc.devRef .tc main_arg11) = W2 m ρ c (Proc.devRef .tc main_arg11) := by
  show StableHlo.after hostOps1 (W2 m ρ c) (Proc.devRef .tc main_arg11) = _
  dsimp only [hostOps1]
  after_results <;> (try rw [extf_ideal]) <;> rfl

/-- The first hidden state. -/
def H1 : Mat 100000 128 :=
  G0 (m ((c : Thread nD τ).loc main_arg0)) (aggK (m ((c : Thread nD τ).loc main_arg10)) (m ((c : Thread nD τ).loc main_arg11)) (m ((c : Thread nD τ).loc main_arg0))) (scaleCol (m ((c : Thread nD τ).loc main_arg11))) (m ((c : Thread nD τ).loc main_arg1)) (m ((c : Thread nD τ).loc main_arg2)) (biasRow128 (m ((c : Thread nD τ).loc main_arg3)))

/-! ## Boundary 4: after region 1 -/

theorem W4_v33 : W4 m ρ c (Proc.devRef .tc main_v33)
    = G1 (H1 m c) (aggK (m ((c : Thread nD τ).loc main_arg10)) (m ((c : Thread nD τ).loc main_arg11)) (H1 m c)) (scaleCol (m ((c : Thread nD τ).loc main_arg11))) (m ((c : Thread nD τ).loc main_arg4)) (m ((c : Thread nD τ).loc main_arg5)) (biasRow128 (m ((c : Thread nD τ).loc main_arg6))) := by
  refine ((W4_arr m ρ c 6).trans (final1 (V3 m ρ) c)).trans ?_
  show G1 (W3 m ρ c (Proc.devRef .tc main_v20)) (W3 m ρ c (Proc.devRef .tc main_v31)) (W3 m ρ c (Proc.devRef .tc main_v8))
    (W3 m ρ c (Proc.devRef .tc main_arg4)) (W3 m ρ c (Proc.devRef .tc main_arg5)) (W3 m ρ c (Proc.devRef .tc main_v32)) = _
  rw [W3_v20, W3_v31, W3_v8, W3_arg4, W3_arg5, W3_v32, W2_v20, W2_v8, W2_arg4, W2_arg5, W2_arg6, W2_arg10, W2_arg11]
  rfl
theorem W4_v8 : W4 m ρ c (Proc.devRef .tc main_v8) = scaleCol (m ((c : Thread nD τ).loc main_arg11)) :=
  ((W4_arr m ρ c 2).trans (((dat1 (V3 m ρ) c).arrAt_in 2 rfl _).trans (A_eq1 (V3 m ρ) c 2))).trans ((W3_v8 m ρ c).trans (W2_v8 m ρ c))
theorem W4_arg7 : W4 m ρ c (Proc.devRef .tc main_arg7) = (m ((c : Thread nD τ).loc main_arg7)) :=
  (W4_of_ne m ρ c main_arg7 (by decide)).trans ((W3_arg7 m ρ c).trans (W2_arg7 m ρ c))
theorem W4_arg8 : W4 m ρ c (Proc.devRef .tc main_arg8) = (m ((c : Thread nD τ).loc main_arg8)) :=
  (W4_of_ne m ρ c main_arg8 (by decide)).trans ((W3_arg8 m ρ c).trans (W2_arg8 m ρ c))
theorem W4_arg9 : W4 m ρ c (Proc.devRef .tc main_arg9) = (m ((c : Thread nD τ).loc main_arg9)) :=
  (W4_of_ne m ρ c main_arg9 (by decide)).trans ((W3_arg9 m ρ c).trans (W2_arg9 m ρ c))
theorem W4_arg10 : W4 m ρ c (Proc.devRef .tc main_arg10) = (m ((c : Thread nD τ).loc main_arg10)) :=
  (W4_of_ne m ρ c main_arg10 (by decide)).trans ((W3_arg10 m ρ c).trans (W2_arg10 m ρ c))
theorem W4_arg11 : W4 m ρ c (Proc.devRef .tc main_arg11) = (m ((c : Thread nD τ).loc main_arg11)) :=
  (W4_of_ne m ρ c main_arg11 (by decide)).trans ((W3_arg11 m ρ c).trans (W2_arg11 m ρ c))

/-! ## Boundary 5: after the third host stretch -/

set_option maxHeartbeats 1000000 in
theorem W5_v44 : W5 m ρ c (Proc.devRef .tc main_v44) = aggK (W4 m ρ c (Proc.devRef .tc main_arg10)) (W4 m ρ c (Proc.devRef .tc main_arg11)) (W4 m ρ c (Proc.devRef .tc main_v33)) := by
  show StableHlo.after hostOps2 (W4 m ρ c) (Proc.devRef .tc main_v44) = _
  dsimp only [hostOps2]
  after_results <;> (try rw [extf_ideal]) <;> rfl
set_option maxHeartbeats 1000000 in
theorem W5_v45 : W5 m ρ c (Proc.devRef .tc main_v45) = biasRow64 (W4 m ρ c (Proc.devRef .tc main_arg9)) := by
  show StableHlo.after hostOps2 (W4 m ρ c) (Proc.devRef .tc main_v45) = _
  dsimp only [hostOps2]
  after_results <;> (try rw [extf_ideal]) <;> rfl
set_option maxHeartbeats 1000000 in
theorem W5_v33 : W5 m ρ c (Proc.devRef .tc main_v33) = W4 m ρ c (Proc.devRef .tc main_v33) := by
  show StableHlo.after hostOps2 (W4 m ρ c) (Proc.devRef .tc main_v33) = _
  dsimp only [hostOps2]
  after_results <;> (try rw [extf_ideal]) <;> rfl
set_option maxHeartbeats 1000000 in
theorem W5_v8 : W5 m ρ c (Proc.devRef .tc main_v8) = W4 m ρ c (Proc.devRef .tc main_v8) := by
  show StableHlo.after hostOps2 (W4 m ρ c) (Proc.devRef .tc main_v8) = _
  dsimp only [hostOps2]
  after_results <;> (try rw [extf_ideal]) <;> rfl
set_option maxHeartbeats 1000000 in
theorem W5_arg7 : W5 m ρ c (Proc.devRef .tc main_arg7) = W4 m ρ c (Proc.devRef .tc main_arg7) := by
  show StableHlo.after hostOps2 (W4 m ρ c) (Proc.devRef .tc main_arg7) = _
  dsimp only [hostOps2]
  after_results <;> (try rw [extf_ideal]) <;> rfl
set_option maxHeartbeats 1000000 in
theorem W5_arg8 : W5 m ρ c (Proc.devRef .tc main_arg8) = W4 m ρ c (Proc.devRef .tc main_arg8) := by
  show StableHlo.after hostOps2 (W4 m ρ c) (Proc.devRef .tc main_arg8) = _
  dsimp only [hostOps2]
  after_results <;> (try rw [extf_ideal]) <;> rfl

/-- The second hidden state. -/
def H2 : Mat 100000 128 :=
  G1 (H1 m c) (aggK (m ((c : Thread nD τ).loc main_arg10)) (m ((c : Thread nD τ).loc main_arg11)) (H1 m c)) (scaleCol (m ((c : Thread nD τ).loc main_arg11))) (m ((c : Thread nD τ).loc main_arg4)) (m ((c : Thread nD τ).loc main_arg5)) (biasRow128 (m ((c : Thread nD τ).loc main_arg6)))

/-! ## Boundary 6: after region 2 — the result array -/

theorem W6_v46 : W6 m ρ c (Proc.devRef .tc main_v46)
    = G2 (H2 m c) (aggK (m ((c : Thread nD τ).loc main_arg10)) (m ((c : Thread nD τ).loc main_arg11)) (H2 m c)) (scaleCol (m ((c : Thread nD τ).loc main_arg11))) (m ((c : Thread nD τ).loc main_arg7)) (m ((c : Thread nD τ).loc main_arg8)) (biasRow64 (m ((c : Thread nD τ).loc main_arg9))) := by
  refine ((W6_arr m ρ c 6).trans (final2 (V5 m ρ) c)).trans ?_
  show G2 (W5 m ρ c (Proc.devRef .tc main_v33)) (W5 m ρ c (Proc.devRef .tc main_v44)) (W5 m ρ c (Proc.devRef .tc main_v8))
    (W5 m ρ c (Proc.devRef .tc main_arg7)) (W5 m ρ c (Proc.devRef .tc main_arg8)) (W5 m ρ c (Proc.devRef .tc main_v45)) = _
  rw [W5_v33, W5_v44, W5_v8, W5_arg7, W5_arg8, W5_v45, W4_v33, W4_v8, W4_arg7, W4_arg8, W4_arg9, W4_arg10, W4_arg11]
  rfl

/-! ## The column and the rows read back as vectors -/

theorem colOf_scaleCol (a11 : Edges) : colOf (scaleCol a11) = invDeg a11 := by
  funext r
  unfold colOf scaleCol
  refine (shapeCast_apply (invDeg a11) shapeCasts_S100000_S100000x1 (ix2 (r 0) (0 : Fin 1)) r ?_).trans rfl
  rw [Shape.rowMajor_val_two]
  obtain ⟨r0, rfl⟩ : ∃ r0 : Fin 100000, r = ix1 r0 := ⟨r 0, eq_ix1 r⟩
  simp [Shape.rowMajor_val_one]

theorem rowOf_biasRow128 (b : Vc 128) : rowOf (biasRow128 b) = b := by
  funext j
  unfold rowOf biasRow128
  refine (shapeCast_addUnit_apply ![128] b shapeCasts_S128_S1x128 (ix2 (0 : Fin 1) (j 0))).trans ?_
  exact congrArg b (funext fun a => by match a with | ⟨0, _⟩ => rfl)

theorem rowOf_biasRow64 (b : Vc 64) : rowOf (biasRow64 b) = b := by
  funext j
  unfold rowOf biasRow64
  refine (shapeCast_addUnit_apply ![64] b shapeCasts_S64_S1x64 (ix2 (0 : Fin 1) (j 0))).trans ?_
  exact congrArg b (funext fun a => by match a with | ⟨0, _⟩ => rfl)

/-- THE KERNEL'S RESULT ARRAY is the scale-last network of the argument arrays. -/
theorem result_eq : W6 m ρ c (Proc.devRef .tc main_v46)
    = netK (aggK (m ((c : Thread nD τ).loc main_arg10)) (m ((c : Thread nD τ).loc main_arg11))) (invDeg (m ((c : Thread nD τ).loc main_arg11))) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [W6_v46]
  unfold H2 H1 G2 G1 G0 netK
  simp only [colOf_scaleCol, rowOf_biasRow128, rowOf_biasRow64]

end Cert.KernelIdeal.Fold

end
-- ==== Proof.RefIsNet.lean ====
/-
  The reference's result is the network with each aggregate's rows scaled BEFORE the neighbour product.

  Read one operation at a time (the generated read-at-an-index lemmas), each of its three layers is, at entry (r, j),
      Σ_q h(r,q)·Ws(q,j) + Σ_q (agg(h)(r,q) · s(r))·Wn(q,j) + b(j),
  where `agg(h)` gathers the rows of `h` named by the (wrapped) source indices and adds them into the rows named by
  the destination indices, and `s` is the vector of reciprocals of the clamped in-degrees; the first two layers are
  followed by max(·, 0). The aggregation is kept as ONE opaque function of `h`: nothing here looks inside it.
-/
import proofs.«142328_j7146825581283_2_alg».proof.Proof.Gen.ReferenceIdeal.Read
import proofs.«142328_j7146825581283_2_alg».proof.Proof.Spec
import Idealize.ShloMosaic.Lib.ValueIdx
import Idealize.ShloMosaic.PureOps.Ideal.Laws
import Idealize.ShloMosaic.Lib.IdealHost

noncomputable section

namespace Cert.ReferenceIdeal.RefValue

open Idealize.ShloMosaic Idealize.ShloMosaic.ValueIdx Cert.ReferenceIdeal Cert.ReferenceIdeal.Read Cert.Sage

/-- The reference's neighbour aggregation of a node matrix `h`: gather the rows the source indices name, add them into
    the rows the destination indices name, starting from zero. -/
def aggR (x10 x11 : (⟨S1600000, .i32⟩ : BufTy).Contents (Elt Ideal)) (h : Mat 100000 128) : Mat 100000 128 :=
  Host.scatterAdd (F := Ideal) (φ := .f32) scatter_S100000x128_S1600000x1_S1600000x128_1_0_0_1 (val_main_v15 (F := Ideal))
    (val_main_v16 (F := Ideal) x11)
    (Host.gather gather_S100000x128_S1600000x1_S1600000x128_1_0_n_n_0_1_1128 h (val_main_v13 (F := Ideal) x10))

/-! ## The generated index functions, by coordinates -/

theorem lidx21 (r : Fin 100000) (j : Fin 128) (k : Fin 128) : lidx_main_v21 (ix2 r j) k = ix2 r k :=
  funext fun a => Fin.ext (by match a with | ⟨0, _⟩ => rfl | ⟨1, _⟩ => rfl)
theorem ridx21 (r : Fin 100000) (j : Fin 128) (k : Fin 128) : ridx_main_v21 (ix2 r j) k = ix2 k j :=
  funext fun a => Fin.ext (by match a with | ⟨0, _⟩ => rfl | ⟨1, _⟩ => rfl)
theorem lidx22 (r : Fin 100000) (j : Fin 128) (k : Fin 128) : lidx_main_v22 (ix2 r j) k = ix2 r k :=
  funext fun a => Fin.ext (by match a with | ⟨0, _⟩ => rfl | ⟨1, _⟩ => rfl)
theorem ridx22 (r : Fin 100000) (j : Fin 128) (k : Fin 128) : ridx_main_v22 (ix2 r j) k = ix2 k j :=
  funext fun a => Fin.ext (by match a with | ⟨0, _⟩ => rfl | ⟨1, _⟩ => rfl)
theorem lidx41 (r : Fin 100000) (j : Fin 128) (k : Fin 128) : lidx_main_v41 (ix2 r j) k = ix2 r k :=
  funext fun a => Fin.ext (by match a with | ⟨0, _⟩ => rfl | ⟨1, _⟩ => rfl)
theorem ridx41 (r : Fin 100000) (j : Fin 128) (k : Fin 128) : ridx_main_v41 (ix2 r j) k = ix2 k j :=
  funext fun a => Fin.ext (by match a with | ⟨0, _⟩ => rfl | ⟨1, _⟩ => rfl)
theorem lidx42 (r : Fin 100000) (j : Fin 128) (k : Fin 128) : lidx_main_v42 (ix2 r j) k = ix2 r k :=
  funext fun a => Fin.ext (by match a with | ⟨0, _⟩ => rfl | ⟨1, _⟩ => rfl)
theorem ridx42 (r : Fin 100000) (j : Fin 128) (k : Fin 128) : ridx_main_v42 (ix2 r j) k = ix2 k j :=
  funext fun a => Fin.ext (by match a with | ⟨0, _⟩ => rfl | ⟨1, _⟩ => rfl)
theorem lidx61 (r : Fin 100000) (j : Fin 64) (k : Fin 128) : lidx_main_v61 (ix2 r j) k = ix2 r k :=
  funext fun a => Fin.ext (by match a with | ⟨0, _⟩ => rfl | ⟨1, _⟩ => rfl)
theorem ridx61 (r : Fin 100000) (j : Fin 64) (k : Fin 128) : ridx_main_v61 (ix2 r j) k = ix2 k j :=
  funext fun a => Fin.ext (by match a with | ⟨0, _⟩ => rfl | ⟨1, _⟩ => rfl)
theorem lidx62 (r : Fin 100000) (j : Fin 64) (k : Fin 128) : lidx_main_v62 (ix2 r j) k = ix2 r k :=
  funext fun a => Fin.ext (by match a with | ⟨0, _⟩ => rfl | ⟨1, _⟩ => rfl)
theorem ridx62 (r : Fin 100000) (j : Fin 64) (k : Fin 128) : ridx_main_v62 (ix2 r j) k = ix2 k j :=
  funext fun a => Fin.ext (by match a with | ⟨0, _⟩ => rfl | ⟨1, _⟩ => rfl)

theorem sidx1 (r : Fin 100000) (k : Fin 128) : idx_main_v18 (idx_main_v19 (ix2 r k)) = ix1 r :=
  funext fun a => Fin.ext (by match a with | ⟨0, _⟩ => rfl)
theorem sidx2 (r : Fin 100000) (k : Fin 128) : idx_main_v38 (idx_main_v39 (ix2 r k)) = ix1 r :=
  funext fun a => Fin.ext (by match a with | ⟨0, _⟩ => rfl)
theorem sidx3 (r : Fin 100000) (k : Fin 128) : idx_main_v58 (idx_main_v59 (ix2 r k)) = ix1 r :=
  funext fun a => Fin.ext (by match a with | ⟨0, _⟩ => rfl)
theorem bidx1 (r : Fin 100000) (j : Fin 128) : idx_main_v24 (idx_main_v25 (ix2 r j)) = ix1 j :=
  funext fun a => Fin.ext (by match a with | ⟨0, _⟩ => rfl)
theorem bidx2 (r : Fin 100000) (j : Fin 128) : idx_main_v44 (idx_main_v45 (ix2 r j)) = ix1 j :=
  funext fun a => Fin.ext (by match a with | ⟨0, _⟩ => rfl)
theorem bidx3 (r : Fin 100000) (j : Fin 64) : idx_main_v64 (idx_main_v65 (ix2 r j)) = ix1 j :=
  funext fun a => Fin.ext (by match a with | ⟨0, _⟩ => rfl)

/-- The scale-first layer at an entry given by coordinates. -/
theorem layR_ix2 {d : ℕ} (h a : Mat 100000 128) (c : Vc 100000) (Ws Wn : Mat 128 d) (b : Vc d) (r : Fin 100000) (j : Fin d) :
    layR h a c Ws Wn b (ix2 r j)
      = (∑ q : Fin 128, h (ix2 r q) * Ws (ix2 q j) + ∑ q : Fin 128, (a (ix2 r q) * c (ix1 r)) * Wn (ix2 q j)) + b (ix1 j) := rfl

variable (x0 : (⟨S100000x128, .f32⟩ : BufTy).Contents (Elt Ideal)) (x1 x2 : (⟨S128x128, .f32⟩ : BufTy).Contents (Elt Ideal))
  (x3 : (⟨S128, .f32⟩ : BufTy).Contents (Elt Ideal)) (x4 x5 : (⟨S128x128, .f32⟩ : BufTy).Contents (Elt Ideal))
  (x6 : (⟨S128, .f32⟩ : BufTy).Contents (Elt Ideal)) (x7 x8 : (⟨S128x64, .f32⟩ : BufTy).Contents (Elt Ideal))
  (x9 : (⟨S64, .f32⟩ : BufTy).Contents (Elt Ideal)) (x10 x11 : (⟨S1600000, .i32⟩ : BufTy).Contents (Elt Ideal))

/-! ## Each layer's aggregate is `aggR` of the layer's input (the three copies of the index preparation are one term) -/

theorem agg1_eq : val_main_v17 (F := Ideal) x0 x10 x11 = aggR x10 x11 x0 := rfl
theorem agg2_eq : val_main_v37 (F := Ideal) x0 x1 x2 x3 x10 x11 = aggR x10 x11 (val_main_v27 (F := Ideal) x0 x1 x2 x3 x10 x11) := rfl
theorem agg3_eq : val_main_v57 (F := Ideal) x0 x1 x2 x3 x4 x5 x6 x10 x11 = aggR x10 x11 (val_main_v47 (F := Ideal) x0 x1 x2 x3 x4 x5 x6 x10 x11) := rfl

/-! ## The scaled aggregate of each layer at an entry: the aggregate there times the row's scale -/

theorem scaled1 (r : Fin 100000) (k : Fin 128) : val_main_v20 (F := Ideal) x0 x10 x11 (ix2 r k)
    = aggR x10 x11 x0 (ix2 r k) * val_main_v7 (F := Ideal) x11 (ix1 r) := by
  rw [val_main_v20_apply, val_main_v19_apply, val_main_v18_apply, sidx1, agg1_eq, Ideal.mulf_def]
theorem scaled2 (r : Fin 100000) (k : Fin 128) : val_main_v40 (F := Ideal) x0 x1 x2 x3 x10 x11 (ix2 r k)
    = aggR x10 x11 (val_main_v27 (F := Ideal) x0 x1 x2 x3 x10 x11) (ix2 r k) * val_main_v7 (F := Ideal) x11 (ix1 r) := by
  rw [val_main_v40_apply, val_main_v39_apply, val_main_v38_apply, sidx2, agg2_eq, Ideal.mulf_def]
theorem scaled3 (r : Fin 100000) (k : Fin 128) : val_main_v60 (F := Ideal) x0 x1 x2 x3 x4 x5 x6 x10 x11 (ix2 r k)
    = aggR x10 x11 (val_main_v47 (F := Ideal) x0 x1 x2 x3 x4 x5 x6 x10 x11) (ix2 r k) * val_main_v7 (F := Ideal) x11 (ix1 r) := by
  rw [val_main_v60_apply, val_main_v59_apply, val_main_v58_apply, sidx3, agg3_eq, Ideal.mulf_def]

/-! ## Layer 1 -/

theorem layer1_eq : val_main_v26 (F := Ideal) x0 x1 x2 x3 x10 x11
    = layR x0 (aggR x10 x11 x0) (val_main_v7 (F := Ideal) x11) x1 x2 x3 := by
  funext i
  obtain ⟨r, j, rfl⟩ : ∃ (r : Fin 100000) (j : Fin 128), i = ix2 r j := ⟨i 0, i 1, eq_ix2 i⟩
  rw [layR_ix2, val_main_v26_apply, val_main_v23_apply, val_main_v21_apply, val_main_v22_apply, val_main_v25_apply, val_main_v24_apply]
  simp only [Ideal.addf_def, lidx21, ridx21, lidx22, ridx22, bidx1, scaled1]

theorem relu1_eq : val_main_v27 (F := Ideal) x0 x1 x2 x3 x10 x11 = relu (val_main_v26 (F := Ideal) x0 x1 x2 x3 x10 x11) := by
  funext i
  rw [val_main_v27_apply, val_main_call0_v0_apply, val_main_call0_cst_apply]
  simp only [Ideal.maximumf_def, Ideal.ofBits_def, Ideal.ofBits_zero_f32]
  rfl

/-! ## Layer 2 -/

theorem layer2_eq : val_main_v46 (F := Ideal) x0 x1 x2 x3 x4 x5 x6 x10 x11
    = layR (val_main_v27 (F := Ideal) x0 x1 x2 x3 x10 x11) (aggR x10 x11 (val_main_v27 (F := Ideal) x0 x1 x2 x3 x10 x11))
        (val_main_v7 (F := Ideal) x11) x4 x5 x6 := by
  funext i
  obtain ⟨r, j, rfl⟩ : ∃ (r : Fin 100000) (j : Fin 128), i = ix2 r j := ⟨i 0, i 1, eq_ix2 i⟩
  rw [layR_ix2, val_main_v46_apply, val_main_v43_apply, val_main_v41_apply, val_main_v42_apply, val_main_v45_apply, val_main_v44_apply]
  simp only [Ideal.addf_def, lidx41, ridx41, lidx42, ridx42, bidx2, scaled2]

theorem relu2_eq : val_main_v47 (F := Ideal) x0 x1 x2 x3 x4 x5 x6 x10 x11 = relu (val_main_v46 (F := Ideal) x0 x1 x2 x3 x4 x5 x6 x10 x11) := by
  funext i
  rw [val_main_v47_apply, val_main_call1_v0_apply, val_main_call1_cst_apply]
  simp only [Ideal.maximumf_def, Ideal.ofBits_def, Ideal.ofBits_zero_f32]
  rfl

/-! ## Layer 3 -/

theorem layer3_eq : val_main_v66 (F := Ideal) x0 x1 x2 x3 x4 x5 x6 x7 x8 x9 x10 x11
    = layR (val_main_v47 (F := Ideal) x0 x1 x2 x3 x4 x5 x6 x10 x11) (aggR x10 x11 (val_main_v47 (F := Ideal) x0 x1 x2 x3 x4 x5 x6 x10 x11))
        (val_main_v7 (F := Ideal) x11) x7 x8 x9 := by
  funext i
  obtain ⟨r, j, rfl⟩ : ∃ (r : Fin 100000) (j : Fin 64), i = ix2 r j := ⟨i 0, i 1, eq_ix2 i⟩
  rw [layR_ix2, val_main_v66_apply, val_main_v63_apply, val_main_v61_apply, val_main_v62_apply, val_main_v65_apply, val_main_v64_apply]
  simp only [Ideal.addf_def, lidx61, ridx61, lidx62, ridx62, bidx3, scaled3]

/-- THE REFERENCE'S RESULT is the scale-first network of its arguments. -/
theorem result_eq : val_main_v66 (F := Ideal) x0 x1 x2 x3 x4 x5 x6 x7 x8 x9 x10 x11
    = netR (aggR x10 x11) (val_main_v7 (F := Ideal) x11) x0 x1 x2 x3 x4 x5 x6 x7 x8 x9 := by
  unfold netR
  rw [layer3_eq, relu2_eq, layer2_eq, relu1_eq, layer1_eq]

/-- Every scale is the reciprocal of something at least one: it lies in [0, +∞), whatever the in-degree is. -/
theorem scale_mem (r : S100000.Idx) :
    0 ≤ val_main_v7 (F := Ideal) x11 r ∧ val_main_v7 (F := Ideal) x11 r ≠ ⊤ := by
  rw [val_main_v7_apply, val_main_v6_apply, val_main_cst_2_apply, val_main_v5_apply, val_main_v4_apply, val_main_cst_1_apply]
  simp only [Ideal.hostDivf_def, Ideal.maximumf_def, Ideal.ofBits_def, Ideal.ofBits_one_f32]
  exact recip_max_one_mem _

end Cert.ReferenceIdeal.RefValue

end
-- ==== Proof.Bridge.lean ====
/-
  The two programs spell the same aggregation and the same scales.

  Each printed program carries its own copies of the gather and scatter dimension records and of the index
  preparation; they are the same literals, so the kernel's aggregation and vector of scales ARE the reference's, and
  with the scales in [0, +∞) the scale-last network the kernel computes is the scale-first network the reference
  computes.
-/
import proofs.«142328_j7146825581283_2_alg».proof.Proof.KFold
import proofs.«142328_j7146825581283_2_alg».proof.Proof.RefIsNet

set_option maxRecDepth 16384

noncomputable section

namespace Cert.Bridge

open Idealize.ShloMosaic Cert.Sage

/-- The kernel's aggregation is the reference's. -/
theorem agg_eq (a10 a11 : (⟨Cert.KernelIdeal.S1600000, .i32⟩ : BufTy).Contents (Elt Ideal)) :
    Cert.KernelIdeal.Fold.aggK a10 a11 = Cert.ReferenceIdeal.RefValue.aggR a10 a11 := rfl

/-- The kernel's vector of scales is the reference's. -/
theorem scale_eq (a11 : (⟨Cert.KernelIdeal.S1600000, .i32⟩ : BufTy).Contents (Elt Ideal)) :
    Cert.KernelIdeal.Fold.invDeg a11 = Cert.ReferenceIdeal.Read.val_main_v7 (F := Ideal) a11 := rfl

/-- The kernel's network of the arguments is the reference's. -/
theorem net_eq (a0 : Mat 100000 128) (a1 a2 : Mat 128 128) (a3 : Vc 128) (a4 a5 : Mat 128 128) (a6 : Vc 128) (a7 a8 : Mat 128 64)
    (a9 : Vc 64) (a10 a11 : (⟨Cert.KernelIdeal.S1600000, .i32⟩ : BufTy).Contents (Elt Ideal)) :
    netK (Cert.KernelIdeal.Fold.aggK a10 a11) (Cert.KernelIdeal.Fold.invDeg a11) a0 a1 a2 a3 a4 a5 a6 a7 a8 a9
      = netR (Cert.ReferenceIdeal.RefValue.aggR a10 a11) (Cert.ReferenceIdeal.Read.val_main_v7 (F := Ideal) a11) a0 a1 a2 a3 a4 a5 a6 a7 a8 a9 := by
  rw [agg_eq, scale_eq]
  exact netK_eq_netR _ _ _ _ _ _ _ _ _ _ _ _ (Cert.ReferenceIdeal.RefValue.scale_mem a11)

end Cert.Bridge

end
-- ==== Proof.lean ====
/-
  The proof of `Cert.Claim`: a three-layer mean-aggregation graph network, its dense part in three Pallas regions, against
  the plain reference.

  Per layer both programs compute, at entry (r, j),  Σ_q h(r,q)·Ws(q,j) + [neighbour term] + b(j)  (then max(·, 0) in the
  first two layers), where the neighbour aggregate `agg(h)` gathers rows of `h` by source index and adds them by
  destination index, and s(r) is the reciprocal of the in-degree clamped below at one. The kernel scales the finished
  neighbour product, s(r) · Σ_q agg(h)(r,q)·Wn(q,j); the reference scales the aggregate first, Σ_q (agg(h)(r,q)·s(r))·Wn(q,j).
  On the extended reals the two agree because s(r) lies in [0, +∞) — a non-negative finite factor distributes over a
  finite sum whatever the summands are — and products commute and associate; the changes of float format are
  identities, and a product into a zero accumulator is the plain sum. No finiteness of the inputs is used.

  The frames are the generated ones; the idealization rewrote nothing (`preserves` is `True`); `algebraic` puts the
  kernel's run, its result array read through the six boundaries of @main (Proof/KRun, KFold over KBlocks and KPay),
  beside the reference's run read one operation at a time (Proof/RefIsNet), joined by the law (Proof/Spec, Bridge).
-/
import proofs.«142328_j7146825581283_2_alg».proof.Defs
import proofs.«142328_j7146825581283_2_alg».proof.Proof.Gen.Kernel
import proofs.«142328_j7146825581283_2_alg».proof.Proof.Gen.KernelIdeal
import proofs.«142328_j7146825581283_2_alg».proof.Proof.Gen.ReferenceIdeal
import proofs.«142328_j7146825581283_2_alg».proof.Proof.Gen.Pre_finite_inputs
import proofs.«142328_j7146825581283_2_alg».proof.Proof.Gen.ReferenceIdeal.Run
import proofs.«142328_j7146825581283_2_alg».proof.Proof.Gen.ReferenceIdeal.Read
import proofs.«142328_j7146825581283_2_alg».proof.Proof.GenPFrameK
import proofs.«142328_j7146825581283_2_alg».proof.Proof.GenPFrameKI
import proofs.«142328_j7146825581283_2_alg».proof.Proof.KRun
import proofs.«142328_j7146825581283_2_alg».proof.Proof.Bridge
import Idealize.ShloMosaic.Adequacy
import Idealize.ShloMosaic.Init

noncomputable section

namespace Cert.Proof

open Idealize.ShloMosaic Idealize.ShloMosaic.TcCoe Idealize.SL.Sem Cert.Sage

namespace Claims

theorem frame_k : Cert.frame_Kernel (hKernel := Cert.Kernel.Gen.facts) (hPre_finite_inputs := Cert.Pre_finite_inputs.Gen.facts) :=
  fun m ρ _ => Cert.Kernel.GenP.frame m ρ
theorem frame_ki : Cert.frame_KernelIdeal (hKernelIdeal := Cert.KernelIdeal.Gen.facts) (hPre_finite_inputs := Cert.Pre_finite_inputs.Gen.facts) :=
  fun m ρ _ => Cert.KernelIdeal.GenP.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result array at the network of the arguments: the kernel's at the scale-last one, the
    reference's at the scale-first one, which is the same function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => netK (Cert.KernelIdeal.Fold.aggK (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (Cert.KernelIdeal.Fold.invDeg (m ((c.tc : Thread Cert.KernelIdeal.nD Cert.KernelIdeal.τ).loc Cert.KernelIdeal.main_arg11)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Fold.result_eq m ρ c), (h c).2⟩)
      (Cert.KernelIdeal.ValueRun.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Read.val_main_v66_eq, Cert.ReferenceIdeal.RefValue.result_eq, e0, e1, e2, e3, e4, e5, e6, e7, e8, e9, e10, e11]
    exact (Cert.Bridge.net_eq _ _ _ _ _ _ _ _ _ _ _ _).symm

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
